-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x8 : Shape := ⟨2, ![640000, 8]⟩
abbrev S264x128 : Shape := ⟨2, ![264, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x8 : S_.BroadcastsInDim S640000x8 (![] : Fin 0 → Fin S640000x8.rank)
  reducesTo_S640000x8_S_d0_1 : S640000x8.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S264x128 1) : IVec S_ 1 :=
  let main_c_5 : IVec S_ 1 := constantI S_ 1 1#1
  let main_v17 : IVec S_ 1 := (fun x v => Host.reduce IntOp.andi x v reducesTo_S264x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S40000x128 .f32) (main_arg1 : FVec F S40000x128 .f32) (main_arg2 : FVec F S640000x8 .f32) (main_arg3 : FVec F S264x128 .f32) (main_arg4 : FVec F S128 .f32) (main_arg5 : FVec F S128x1 .f32) (main_arg6 : FVec F S1 .f32) (main_arg7 : IVec S640000 32) (main_arg8 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S640000x8 .f32 := Host.absf main_arg2
  let main_cst_2 : FVec F S_ .f32 := constant S_ .f32 0x7F800000#32
  let main_v10 : FVec F S640000x8 .f32 := broadcastInDim S640000x8 ![] bcast_S_S640000x8 main_cst_2
  let main_v11 : IVec S640000x8 1 := cmpf .olt main_v9 main_v10
  let main_c_3 : IVec S_ 1 := constantI S_ 1 1#1
  let main_v12 : IVec S_ 1 := (fun x v => Host.reduce IntOp.andi x v reducesTo_S640000x8_S_d0_1 h_S_) main_v11 main_c_3
  let main_v13 : IVec S_ 1 := andi main_v8 main_v12
  let main_v14 : FVec F S264x128 .f32 := Host.absf main_arg3
  let main_cst_4 : FVec F S_ .f32 := constant S_ .f32 0x7F800000#32
  let main_v15 : FVec F S264x128 .f32 := broadcastInDim S264x128 ![] bcast_S_S264x128 main_cst_4
  let main_v16 : IVec S264x128 1 := cmpf .olt main_v14 main_v15
  fn_part1 (F := F) main_arg4 main_arg5 main_arg6 main_v13 main_v16
-- ==== Kernel.lean ====
abbrev S40000x128 : Shape := ⟨2, ![40000, 128]⟩
abbrev S640000x8 : Shape := ⟨2, ![640000, 8]⟩
abbrev S264x128 : Shape := ⟨2, ![264, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x128 : Shape := ⟨2, ![128, 128]⟩
abbrev S8x128 : Shape := ⟨2, ![8, 128]⟩
abbrev S1x128 : Shape := ⟨2, ![1, 128]⟩
abbrev S1x1 : Shape := ⟨2, ![1, 1]⟩
abbrev S5120x128 : Shape := ⟨2, ![5120, 128]⟩
abbrev S5120x8 : Shape := ⟨2, ![5120, 8]⟩
abbrev S5120 : Shape := ⟨1, ![5120]⟩
abbrev S5120x1 : Shape := ⟨2, ![5120, 1]⟩

abbrev nBuf : Space → Nat
  | .hbm => 38
  | .vmem => 14
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000x8, .f32⟩
  | .hbm, ⟨3, _⟩ => ⟨S264x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S128x128, .f32⟩
  | .hbm, ⟨28, _⟩ => ⟨S128x128, .f32⟩
  | .hbm, ⟨29, _⟩ => ⟨S8x128, .f32⟩
  | .hbm, ⟨30, _⟩ => ⟨S1x128, .f32⟩
  | .hbm, ⟨31, _⟩ => ⟨S1x128, .f32⟩
  | .hbm, ⟨32, _⟩ => ⟨S1x1, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .local _ .vmem, ⟨0, _⟩ => ⟨S5120x128, .f32⟩
  | .local _ .vmem, ⟨1, _⟩ => ⟨S5120x128, .f32⟩
  | .local _ .vmem, ⟨2, _⟩ => ⟨S5120x128, .f32⟩
  | .local _ .vmem, ⟨3, _⟩ => ⟨S5120x128, .f32⟩
  | .local _ .vmem, ⟨4, _⟩ => ⟨S5120x8, .f32⟩
  | .local _ .vmem, ⟨5, _⟩ => ⟨S5120x8, .f32⟩
  | .local _ .vmem, ⟨6, _⟩ => ⟨S128x128, .f32⟩
  | .local _ .vmem, ⟨7, _⟩ => ⟨S128x128, .f32⟩
  | .local _ .vmem, ⟨8, _⟩ => ⟨S8x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S5120x128, .f32⟩
  | .local _ .vmem, ⟨13, _⟩ => ⟨S5120x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5120x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S264x128_S128x128_0_0 : S264x128.Slices ![0, 0] S128x128
  slices_S264x128_S128x128_128_0 : S264x128.Slices ![128, 0] S128x128
  slices_S264x128_S8x128_256_0 : S264x128.Slices ![256, 0] S8x128
  shapeCasts_S128_S1x128 : S128.ShapeCasts S1x128
  shapeCasts_S128x1_S1x128 : S128x1.ShapeCasts S1x128
  shapeCasts_S1_S1x1 : S1.ShapeCasts S1x1
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5120x8_S5120x8_0_0 : ∀ a, (![0, 0] : Fin 2 → Nat) a + S5120x8.size a ≤ S5120x8.size a
  h_S5120x8 : 0 < S5120x8.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  reduces_S5120x128_S5120 : S5120x128.Reduces [1] S5120
  shapeCasts_S5120_S5120x1 : S5120.ShapeCasts S5120x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5120x1 : S1x1.Broadcasts S5120x1
  broadcasts_S5120x1_S5120x128 : S5120x1.Broadcasts S5120x128
  bcast_S_S40000x128 : S_.BroadcastsInDim S40000x128 (![] : Fin 0 → Fin S40000x128.rank)
  gather_S40000x128_S640000x1_S640000x128_1_0_n_n_0_1_1128_wf : GatherDims.WF S40000x128 S640000x1 S640000x128 [1] [0] [] [0] [] 1 ![1, 128]
  dot_S5120x128_S128x128_S5120x128_1_0_0_1_n_n_wf : DotDims.WF S5120x128 S128x128 S5120x128 [1] [0] [0] [1] [] []
  dot_S5120x8_S8x128_S5120x128_1_0_0_1_n_n_wf : DotDims.WF S5120x8 S8x128 S5120x128 [1] [0] [0] [1] [] []
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .f32 = 32 ∨ (Rect.block (s := S640000x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .f32 = 32 ∨ (Rect.block (s := S640000x128) S5120x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x8.size a ≤ S640000x8.size a
  hwx0_2 : ∀ i : grid0.Coords, EltTy.bits .f32 = 32 ∨ (Rect.block (s := S640000x8) S5120x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5120x128.size a ≤ S640000x128.size a
  hwx0_9 : ∀ i : grid0.Coords, EltTy.bits .f32 = 32 ∨ (Rect.block (s := S640000x128) S5120x128.size (cc0_transform_9 i) (hinb0_9 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x8_S8x128_S5120x128_1_0_0_1_n_n : DotDims S5120x8 S8x128 S5120x128 where
  lhsContracting := [1]
  rhsContracting := [0]
  lhsNonContracting := [0]
  rhsNonContracting := [1]
  lhsBatch := []
  rhsBatch := []
  wf := dot_S5120x8_S8x128_S5120x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_v6) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5120x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S5120x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000x8 : Shape := ⟨2, ![640000, 8]⟩
abbrev S264x128 : Shape := ⟨2, ![264, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x264 : Shape := ⟨2, ![640000, 264]⟩
abbrev S1x128 : Shape := ⟨2, ![1, 128]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000x8, .f32⟩
  | .hbm, ⟨3, _⟩ => ⟨S264x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x264, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S640000x128, .f32⟩
  | .hbm, ⟨39, _⟩ => ⟨S640000x128, .f32⟩
  | .hbm, ⟨40, _⟩ => ⟨S640000x128, .f32⟩
  | .hbm, ⟨41, _⟩ => ⟨S640000x1, .f32⟩
  | .hbm, ⟨42, _⟩ => ⟨S1x1, .f32⟩
  | .hbm, ⟨43, _⟩ => ⟨S640000x1, .f32⟩
  | .hbm, ⟨44, _⟩ => ⟨S640000x1, .f32⟩
  | .hbm, ⟨45, _⟩ => ⟨S640000x1, .f32⟩
  | .hbm, ⟨46, _⟩ => ⟨S640000x1, .f32⟩
  | .hbm, ⟨47, _⟩ => ⟨S_, .f32⟩
  | .hbm, ⟨48, _⟩ => ⟨S640000x1, .f32⟩
  | .hbm, ⟨49, _⟩ => ⟨S640000x1, .f32⟩
  | .hbm, ⟨50, _⟩ => ⟨S_, .f32⟩
  | .hbm, ⟨51, _⟩ => ⟨S640000x1, .f32⟩
  | .hbm, ⟨52, _⟩ => ⟨S640000x1, .f32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x8_S640000x264_d1 : Shape.Concatenates [S640000x128, S640000x128, S640000x8] S640000x264 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  gather_S40000x128_S640000x1_S640000x128_1_0_n_n_0_1_1128_wf : GatherDims.WF S40000x128 S640000x1 S640000x128 [1] [0] [] [0] [] 1 ![1, 128]
  dot_S640000x264_S264x128_S640000x128_1_0_0_1_n_n_wf : DotDims.WF S640000x264 S264x128 S640000x128 [1] [0] [0] [1] [] []
  dot_S640000x128_S128x1_S640000x1_1_0_0_1_n_n_wf : DotDims.WF S640000x128 S128x1 S640000x1 [1] [0] [0] [1] [] []
  scatter_S40000x128_S640000x1_S640000x128_1_0_0_1_wf : ScatterDims.WF S40000x128 S640000x1 S640000x128 [1] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x264_S264x128_S640000x128_1_0_0_1_n_n : DotDims S640000x264 S264x128 S640000x128 where
  lhsContracting := [1]
  rhsContracting := [0]
  lhsNonContracting := [0]
  rhsNonContracting := [1]
  lhsBatch := []
  rhsBatch := []
  wf := dot_S640000x264_S264x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.GateSpec.lean ====
/-
  What both programs compute for ONE edge, over the extended reals, and the one law that joins their two
  arrangements of the first matrix product.

  An edge carries a sender row `s` and a receiver row `r` (128 entries each) and 8 attributes `a`. The first
  layer's weight matrix has 264 rows; cut into its three row bands `ws` (rows 0–127), `wr` (rows 128–255) and
  `we` (rows 256–263), the hidden pre-activation of unit `j` is

      pre j = ((Σ_k s k · ws k j + Σ_k r k · wr k j) + Σ_k a k · we k j) + b j,

  the message is its SiLU, `msg j = pre j · σ (pre j)` with `σ x = 1 / (1 + e^(−x))`, the gate is

      gate = σ (Σ_k msg k · wi k + bi),

  and the edge's weighted message is `msg j · gate`.

  One program multiplies the three bands separately and adds the three products; the other joins `s`, `r`, `a`
  into one row of 264 entries and multiplies once. The two agree because a sum over 264 indices is the sum of
  its three consecutive stretches of 128, 128 and 8 (`sum_three_bands`): associativity and commutativity of
  addition only, so it holds on the extended reals at the infinities too, and nothing here needs an entry to
  be finite.
-/
import Idealize.ShloMosaic.PureOps.Ideal
import Idealize.ShloMosaic.Lib.ValueIdx
import Mathlib.Algebra.BigOperators.Fin

noncomputable section

namespace Cert.EdgeGate

open Idealize.ShloMosaic

/-- The hidden pre-activation of unit `j` for one edge: the three bands' products added in the order
    (sender + receiver) + attributes, then the bias. -/
def pre (ws wr : Fin 128 → Fin 128 → EReal) (we : Fin 8 → Fin 128 → EReal) (b : Fin 128 → EReal)
    (s r : Fin 128 → EReal) (a : Fin 8 → EReal) (j : Fin 128) : EReal :=
  ((∑ k : Fin 128, s k * ws k j + ∑ k : Fin 128, r k * wr k j) + ∑ k : Fin 8, a k * we k j) + b j

/-- The message: the SiLU of the pre-activation, `x · σ x`. -/
def msg (ws wr : Fin 128 → Fin 128 → EReal) (we : Fin 8 → Fin 128 → EReal) (b : Fin 128 → EReal)
    (s r : Fin 128 → EReal) (a : Fin 8 → EReal) (j : Fin 128) : EReal :=
  pre ws wr we b s r a j * Ideal.logistic (pre ws wr we b s r a j)

/-- The gate's logit: the message against the second layer's column, plus its bias. -/
def logit (ws wr : Fin 128 → Fin 128 → EReal) (we : Fin 8 → Fin 128 → EReal) (b : Fin 128 → EReal)
    (wi : Fin 128 → EReal) (bi : EReal) (s r : Fin 128 → EReal) (a : Fin 8 → EReal) : EReal :=
  ∑ k : Fin 128, msg ws wr we b s r a k * wi k + bi

/-- The edge's weighted message at unit `j`: the message times the sigmoid of the logit. -/
def weighted (ws wr : Fin 128 → Fin 128 → EReal) (we : Fin 8 → Fin 128 → EReal) (b : Fin 128 → EReal)
    (wi : Fin 128 → EReal) (bi : EReal) (s r : Fin 128 → EReal) (a : Fin 8 → EReal) (j : Fin 128) : EReal :=
  msg ws wr we b s r a j * Ideal.logistic (logit ws wr we b wi bi s r a)

/-- A sum over 264 consecutive indices is the sum over its first 128, its next 128 and its last 8, in any
    commutative additive monoid. -/
theorem sum_three_bands {M : Type*} [AddCommMonoid M] (f : Fin 264 → M) :
    ∑ k : Fin 264, f k
      = (∑ k : Fin 128, f ⟨k.val, by omega⟩ + ∑ k : Fin 128, f ⟨128 + k.val, by omega⟩)
        + ∑ k : Fin 8, f ⟨256 + k.val, by omega⟩ := by
  have h1 : ∑ k : Fin 264, f k
      = ∑ k : Fin 256, f ⟨k.val, by omega⟩ + ∑ k : Fin 8, f ⟨256 + k.val, by omega⟩ :=
    Fin.sum_univ_add (a := 256) (b := 8) f
  have h2 : ∑ k : Fin 256, f ⟨k.val, by omega⟩
      = ∑ k : Fin 128, f ⟨k.val, by omega⟩ + ∑ k : Fin 128, f ⟨128 + k.val, by omega⟩ :=
    Fin.sum_univ_add (a := 128) (b := 128) fun k : Fin 256 => f ⟨k.val, by omega⟩
  rw [h1, h2]

/-- Equal data give equal weighted messages (a congruence, for rewriting the nine arguments one by one). -/
theorem weighted_congr {ws ws' wr wr' : Fin 128 → Fin 128 → EReal} {we we' : Fin 8 → Fin 128 → EReal}
    {b b' wi wi' : Fin 128 → EReal} {bi bi' : EReal} {s s' r r' : Fin 128 → EReal} {a a' : Fin 8 → EReal} (j : Fin 128)
    (h1 : ws = ws') (h2 : wr = wr') (h3 : we = we') (h4 : b = b') (h5 : wi = wi') (h6 : bi = bi')
    (h7 : s = s') (h8 : r = r') (h9 : a = a') :
    weighted ws wr we b wi bi s r a j = weighted ws' wr' we' b' wi' bi' s' r' a' j := by
  subst h1 h2 h3 h4 h5 h6 h7 h8 h9; rfl

open Idealize.ShloMosaic.ValueIdx

/-- THE ARRAY OF WEIGHTED MESSAGES, one row per edge: from the senders' rows `A` and the receivers' rows `B` as
    gathered (640000 × 128 each), the edge attributes `E` (640000 × 8), the first layer's 264 × 128 weight matrix
    `W` (its row bands are rows 0–127, 128–255 and 256–263) and bias `b`, the second layer's 128 × 1 column `wi`
    and bias `bi`. Entry (e, j) is the weighted message of edge `e` at unit `j`. -/
def weightedAll (A B : (⟨2, ![640000, 128]⟩ : Shape).Idx → EReal) (E : (⟨2, ![640000, 8]⟩ : Shape).Idx → EReal)
    (W : (⟨2, ![264, 128]⟩ : Shape).Idx → EReal) (b : (⟨1, ![128]⟩ : Shape).Idx → EReal)
    (wi : (⟨2, ![128, 1]⟩ : Shape).Idx → EReal) (bi : (⟨1, ![1]⟩ : Shape).Idx → EReal) :
    (⟨2, ![640000, 128]⟩ : Shape).Idx → EReal := fun i =>
  weighted (fun k j => W (ix2 (⟨k.val, by omega⟩ : Fin 264) j)) (fun k j => W (ix2 (⟨128 + k.val, by omega⟩ : Fin 264) j))
    (fun k j => W (ix2 (⟨256 + k.val, by omega⟩ : Fin 264) j)) (fun j => b (ix1 j)) (fun k => wi (ix2 k (0 : Fin 1)))
    (bi (ix1 (0 : Fin 1)))
    (fun k => A (ix2 (⟨(i 0).val, idx2_lt0 i⟩ : Fin 640000) k)) (fun k => B (ix2 (⟨(i 0).val, idx2_lt0 i⟩ : Fin 640000) k))
    (fun k => E (ix2 (⟨(i 0).val, idx2_lt0 i⟩ : Fin 640000) k)) (⟨(i 1).val, idx2_lt1 i⟩ : Fin 128)

/-- The array at an index whose coordinates are edge `e` and unit `q`. -/
theorem weightedAll_apply (A B : (⟨2, ![640000, 128]⟩ : Shape).Idx → EReal) (E : (⟨2, ![640000, 8]⟩ : Shape).Idx → EReal)
    (W : (⟨2, ![264, 128]⟩ : Shape).Idx → EReal) (b : (⟨1, ![128]⟩ : Shape).Idx → EReal)
    (wi : (⟨2, ![128, 1]⟩ : Shape).Idx → EReal) (bi : (⟨1, ![1]⟩ : Shape).Idx → EReal)
    (i : (⟨2, ![640000, 128]⟩ : Shape).Idx) (e : Fin 640000) (q : Fin 128) (h0 : (i 0).val = e.val) (h1 : (i 1).val = q.val) :
    weightedAll A B E W b wi bi i
      = weighted (fun k j => W (ix2 (⟨k.val, by omega⟩ : Fin 264) j)) (fun k j => W (ix2 (⟨128 + k.val, by omega⟩ : Fin 264) j))
          (fun k j => W (ix2 (⟨256 + k.val, by omega⟩ : Fin 264) j)) (fun j => b (ix1 j)) (fun k => wi (ix2 k (0 : Fin 1)))
          (bi (ix1 (0 : Fin 1))) (fun k => A (ix2 e k)) (fun k => B (ix2 e k)) (fun k => E (ix2 e k)) q := by
  obtain rfl : e = (⟨(i 0).val, idx2_lt0 i⟩ : Fin 640000) := Fin.ext h0.symm
  obtain rfl : q = (⟨(i 1).val, idx2_lt1 i⟩ : Fin 128) := Fin.ext h1.symm
  rfl

end Cert.EdgeGate

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelPayload.lean ====
/-
  The kernel body's arithmetic read at one entry of its output block.

  At every grid point the body holds a block of 5120 edges: their sender rows `xs`, receiver rows `xr`
  (5120 × 128 each) and attributes `xa` (5120 × 8), the first layer's three row bands `ws`, `wr` (128 × 128),
  `we` (8 × 128), its bias `b` as a 1 × 128 row, the second layer's column `wi` laid out as a 1 × 128 row and
  its bias `bi` as a 1 × 1 entry. Read at the extended reals, each of its three matrix products into a zero
  accumulator is a plain sum over the contracted index, the sum along the lanes that gives the gate's logit is a
  plain sum over the 128 lanes, and every other operation acts entry by entry or only re-lays a row or a column.
  So the entry (p, q) of what the body stores is the weighted message of edge `p` of the block at unit `q`
  (`Cert.EdgeGate.weighted`), a function of row `p` of the three edge blocks and of the weights alone.
-/
import proofs.«114606_j14886356648021_2_alg».proof.Proof.Gen.KernelIdeal.Skeleton
import proofs.«114606_j14886356648021_2_alg».proof.Proof.GateSpec
import proofs.«114606_j14886356648021_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen

/-- The dimension numbers of the two 128-deep products and of the 8-deep one. -/
abbrev dotWide := dot_S5120x128_S128x128_S5120x128_1_0_0_1_n_n
abbrev dotNarrow := dot_S5120x8_S8x128_S5120x128_1_0_0_1_n_n

/-! ## A product into a zero accumulator is the sum over the contracted index -/

theorem wide_lhs0 (i : S5120x128.Idx) (c : dotWide.contr.Idx) : (dotWide.lhsIdx i c 0).val = (i 0).val := by
  unfold DotDims.lhsIdx
  rw [dif_neg (show ¬(0 : Fin S5120x128.rank) ∈ dotWide.lhsBatch by decide),
    dif_pos (show (0 : Fin S5120x128.rank) ∈ dotWide.lhsNonContracting by decide)]
  rfl
theorem wide_rhs1 (i : S5120x128.Idx) (c : dotWide.contr.Idx) : (dotWide.rhsIdx i c 1).val = (i 1).val := by
  unfold DotDims.rhsIdx
  rw [dif_neg (show ¬(1 : Fin S128x128.rank) ∈ dotWide.rhsBatch by decide),
    dif_pos (show (1 : Fin S128x128.rank) ∈ dotWide.rhsNonContracting by decide)]
  rfl
theorem narrow_lhs0 (i : S5120x128.Idx) (c : dotNarrow.contr.Idx) : (dotNarrow.lhsIdx i c 0).val = (i 0).val := by
  unfold DotDims.lhsIdx
  rw [dif_neg (show ¬(0 : Fin S5120x8.rank) ∈ dotNarrow.lhsBatch by decide),
    dif_pos (show (0 : Fin S5120x8.rank) ∈ dotNarrow.lhsNonContracting by decide)]
  rfl
theorem narrow_rhs1 (i : S5120x128.Idx) (c : dotNarrow.contr.Idx) : (dotNarrow.rhsIdx i c 1).val = (i 1).val := by
  unfold DotDims.rhsIdx
  rw [dif_neg (show ¬(1 : Fin S8x128.rank) ∈ dotNarrow.rhsBatch by decide),
    dif_pos (show (1 : Fin S8x128.rank) ∈ dotNarrow.rhsNonContracting by decide)]
  rfl

/-- Rows of a 5120 × 128 block against a 128 × 128 band: entry (p, q) is the sum over the 128 contracted entries. -/
theorem matmul_wide_apply (l : FVec Ideal S5120x128 .f32) (r : FVec Ideal S128x128 .f32) (p : Fin 5120) (q : Fin 128) :
    matmul dotWide none l r (constant (F := Ideal) S5120x128 .f32 0x00000000#32) (ix2 p q)
      = ∑ k : Fin 128, l (ix2 p k) * r (ix2 k q) := by
  show FloatOps.matmul dotWide none l r (constant (F := Ideal) S5120x128 .f32 0x00000000#32) (ix2 p q) = _
  rw [Ideal.matmul_constant_zero_apply, ← Equiv.sum_comp (contrEquiv1 dotWide 128 rfl rfl).symm]
  refine Finset.sum_congr rfl fun k _ => ?_
  have hk := contrEquiv1_symm_val dotWide 128 rfl rfl k
  have el : dotWide.lhsIdx (ix2 p q) ((contrEquiv1 dotWide 128 rfl rfl).symm k) = ix2 p k := funext fun a => Fin.ext (by
    match a with
    | ⟨0, _⟩ => exact wide_lhs0 _ _
    | ⟨1, _⟩ => exact (dotWide.lhsIdx_val_of_single rfl _ _).trans hk)
  have er : dotWide.rhsIdx (ix2 p q) ((contrEquiv1 dotWide 128 rfl rfl).symm k) = ix2 k q := funext fun a => Fin.ext (by
    match a with
    | ⟨0, _⟩ => exact (dotWide.rhsIdx_val_of_single rfl _ _).trans hk
    | ⟨1, _⟩ => exact wide_rhs1 _ _)
  rw [el, er]

/-- Rows of a 5120 × 8 block against the 8 × 128 band: entry (p, q) is the sum over the 8 contracted entries. -/
theorem matmul_narrow_apply (l : FVec Ideal S5120x8 .f32) (r : FVec Ideal S8x128 .f32) (p : Fin 5120) (q : Fin 128) :
    matmul dotNarrow none l r (constant (F := Ideal) S5120x128 .f32 0x00000000#32) (ix2 p q)
      = ∑ k : Fin 8, l (ix2 p k) * r (ix2 k q) := by
  show FloatOps.matmul dotNarrow none l r (constant (F := Ideal) S5120x128 .f32 0x00000000#32) (ix2 p q) = _
  rw [Ideal.matmul_constant_zero_apply, ← Equiv.sum_comp (contrEquiv1 dotNarrow 8 rfl rfl).symm]
  refine Finset.sum_congr rfl fun k _ => ?_
  have hk := contrEquiv1_symm_val dotNarrow 8 rfl rfl k
  have el : dotNarrow.lhsIdx (ix2 p q) ((contrEquiv1 dotNarrow 8 rfl rfl).symm k) = ix2 p k := funext fun a => Fin.ext (by
    match a with
    | ⟨0, _⟩ => exact narrow_lhs0 _ _
    | ⟨1, _⟩ => exact (dotNarrow.lhsIdx_val_of_single rfl _ _).trans hk)
  have er : dotNarrow.rhsIdx (ix2 p q) ((contrEquiv1 dotNarrow 8 rfl rfl).symm k) = ix2 k q := funext fun a => Fin.ext (by
    match a with
    | ⟨0, _⟩ => exact (dotNarrow.rhsIdx_val_of_single rfl _ _).trans hk
    | ⟨1, _⟩ => exact narrow_rhs1 _ _)
  rw [el, er]

/-! ## The sum along the lanes -/

/-- The reduced index `p` with lane `k` put back is (p, k). -/
theorem lift_lane (p : Fin 5120) (k : Fin (S5120x128.size 1)) :
    (reduces_S5120x128_S5120 : S5120x128.Reduces [1] S5120).lift (ix1 p) k = ix2 p (⟨k.val, k.isLt⟩ : Fin 128) := by
  funext c; apply Fin.ext
  fin_cases c <;> rfl

/-- A row's sum along its 128 lanes, from the zero word, is the sum of the row's entries. -/
theorem lane_sum_apply (src : FVec Ideal S5120x128 .f32) (hφ : FKind.Formats .f32)
    (hacc : (0x00000000#32 : BitVec 32) = 0x00000000#32) (p : Fin 5120) :
    multiReduction (F := Ideal) .add [1] S5120 src 0x00000000#32 reduces_S5120x128_S5120 hφ hacc (ix1 p)
      = ∑ k : Fin 128, src (ix2 p k) := by
  refine (Ideal.multiReduction_add_single src 0x00000000#32 reduces_S5120x128_S5120 hφ hacc (ix1 p)).trans ?_
  show ∑ k : Fin 128, src ((reduces_S5120x128_S5120 : S5120x128.Reduces [1] S5120).lift (ix1 p) k) = _
  exact Finset.sum_congr rfl fun k _ => congrArg src (lift_lane p k)

/-! ## The body's intermediate values, named -/

/-- The hidden pre-activations of the block: the three bands' products added, then the bias row spread over the rows. -/
def hidden (xs : FVec Ideal S5120x128 .f32) (ws : FVec Ideal S128x128 .f32) (xr : FVec Ideal S5120x128 .f32)
    (wr : FVec Ideal S128x128 .f32) (xa : FVec Ideal S5120x8 .f32) (we : FVec Ideal S8x128 .f32)
    (b : FVec Ideal S1x128 .f32) : FVec Ideal S5120x128 .f32 :=
  addf (addf (addf (matmul dotWide none xs ws (constant (F := Ideal) S5120x128 .f32 0x00000000#32))
      (matmul dotWide none xr wr (constant (F := Ideal) S5120x128 .f32 0x00000000#32)))
      (matmul dotNarrow none xa we (constant (F := Ideal) S5120x128 .f32 0x00000000#32)))
    (broadcastTo S5120x128 b broadcasts_S1x128_S5120x128)

/-- The block's messages: the SiLU of the pre-activations. -/
def message (xs : FVec Ideal S5120x128 .f32) (ws : FVec Ideal S128x128 .f32) (xr : FVec Ideal S5120x128 .f32)
    (wr : FVec Ideal S128x128 .f32) (xa : FVec Ideal S5120x8 .f32) (we : FVec Ideal S8x128 .f32)
    (b : FVec Ideal S1x128 .f32) : FVec Ideal S5120x128 .f32 :=
  mulf (hidden xs ws xr wr xa we b) (logistic (hidden xs ws xr wr xa we b))

/-- The block's gate logits, one per edge, kept as a 5120 × 1 column. -/
def gateLogit (xs : FVec Ideal S5120x128 .f32) (ws : FVec Ideal S128x128 .f32) (xr : FVec Ideal S5120x128 .f32)
    (wr : FVec Ideal S128x128 .f32) (xa : FVec Ideal S5120x8 .f32) (we : FVec Ideal S8x128 .f32)
    (b wi : FVec Ideal S1x128 .f32) (bi : FVec Ideal S1x1 .f32) : FVec Ideal S5120x1 .f32 :=
  addf (shapeCast S5120x1 (multiReduction (F := Ideal) .add [1] S5120
        (mulf (message xs ws xr wr xa we b) (broadcastTo S5120x128 wi broadcasts_S1x128_S5120x128))
        0x00000000#32 reduces_S5120x128_S5120 (.inl rfl) rfl) shapeCasts_S5120_S5120x1)
    (broadcastTo S5120x1 bi broadcasts_S1x1_S5120x1)

/-- What the body stores is the messages times the sigmoid of the gate logits, the column spread over the lanes:
    the payload's same-shape casts are identities. -/
theorem pay_eq (v0 : Vec Ideal S5120x128 .f32) (v2 : Vec Ideal S128x128 .f32) (v5 : Vec Ideal S5120x128 .f32)
    (v7 : Vec Ideal S128x128 .f32) (v11 : Vec Ideal S5120x8 .f32) (v12 : Vec Ideal S8x128 .f32)
    (v16 v22 : Vec Ideal S1x128 .f32) (v28 : Vec Ideal S1x1 .f32) :
    k0_pay1 (F := Ideal) v0 v2 v5 v7 v11 v12 v16 v22 v28
      = mulf (message v0 v2 v5 v7 v11 v12 v16)
          (broadcastTo S5120x128 (logistic (gateLogit v0 v2 v5 v7 v11 v12 v16 v22 v28)) broadcasts_S5120x1_S5120x128) := by
  unfold k0_pay1 gateLogit message hidden
  simp only [shapeCast_self]

/-! ## The named values at an entry -/

theorem hidden_apply (xs : FVec Ideal S5120x128 .f32) (ws : FVec Ideal S128x128 .f32) (xr : FVec Ideal S5120x128 .f32)
    (wr : FVec Ideal S128x128 .f32) (xa : FVec Ideal S5120x8 .f32) (we : FVec Ideal S8x128 .f32)
    (b : FVec Ideal S1x128 .f32) (p : Fin 5120) (q : Fin 128) :
    hidden xs ws xr wr xa we b (ix2 p q)
      = EdgeGate.pre (fun k j => ws (ix2 k j)) (fun k j => wr (ix2 k j)) (fun k j => we (ix2 k j))
          (fun j => b (ix2 (0 : Fin 1) j)) (fun k => xs (ix2 p k)) (fun k => xr (ix2 p k)) (fun k => xa (ix2 p k)) q := by
  unfold hidden EdgeGate.pre
  rw [addf_apply, addf_apply, addf_apply, matmul_wide_apply, matmul_wide_apply, matmul_narrow_apply,
    broadcastTo_1b_ab_apply]

theorem message_apply (xs : FVec Ideal S5120x128 .f32) (ws : FVec Ideal S128x128 .f32) (xr : FVec Ideal S5120x128 .f32)
    (wr : FVec Ideal S128x128 .f32) (xa : FVec Ideal S5120x8 .f32) (we : FVec Ideal S8x128 .f32)
    (b : FVec Ideal S1x128 .f32) (p : Fin 5120) (q : Fin 128) :
    message xs ws xr wr xa we b (ix2 p q)
      = EdgeGate.msg (fun k j => ws (ix2 k j)) (fun k j => wr (ix2 k j)) (fun k j => we (ix2 k j))
          (fun j => b (ix2 (0 : Fin 1) j)) (fun k => xs (ix2 p k)) (fun k => xr (ix2 p k)) (fun k => xa (ix2 p k)) q := by
  unfold message EdgeGate.msg
  rw [mulf_apply]
  show hidden xs ws xr wr xa we b (ix2 p q) * Ideal.logistic (hidden xs ws xr wr xa we b (ix2 p q)) = _
  rw [hidden_apply]

theorem gateLogit_apply (xs : FVec Ideal S5120x128 .f32) (ws : FVec Ideal S128x128 .f32) (xr : FVec Ideal S5120x128 .f32)
    (wr : FVec Ideal S128x128 .f32) (xa : FVec Ideal S5120x8 .f32) (we : FVec Ideal S8x128 .f32)
    (b wi : FVec Ideal S1x128 .f32) (bi : FVec Ideal S1x1 .f32) (p : Fin 5120) :
    gateLogit xs ws xr wr xa we b wi bi (ix2 p (0 : Fin 1))
      = EdgeGate.logit (fun k j => ws (ix2 k j)) (fun k j => wr (ix2 k j)) (fun k j => we (ix2 k j))
          (fun j => b (ix2 (0 : Fin 1) j)) (fun k => wi (ix2 (0 : Fin 1) k)) (bi (ix2 (0 : Fin 1) (0 : Fin 1)))
          (fun k => xs (ix2 p k)) (fun k => xr (ix2 p k)) (fun k => xa (ix2 p k)) := by
  unfold gateLogit EdgeGate.logit
  rw [addf_apply, Cert.Lib.Column.shapeCast_a_a1_apply, lane_sum_apply, broadcastTo_1b_ab_apply]
  refine congrArg (· + bi (ix2 (0 : Fin 1) (0 : Fin 1))) (Finset.sum_congr rfl fun k _ => ?_)
  rw [mulf_apply, message_apply, broadcastTo_1b_ab_apply]

/-- THE BODY AT AN ENTRY: entry (p, q) of what the body stores is the weighted message of the block's edge `p` at
    unit `q`. -/
theorem pay_apply (v0 : Vec Ideal S5120x128 .f32) (v2 : Vec Ideal S128x128 .f32) (v5 : Vec Ideal S5120x128 .f32)
    (v7 : Vec Ideal S128x128 .f32) (v11 : Vec Ideal S5120x8 .f32) (v12 : Vec Ideal S8x128 .f32)
    (v16 v22 : Vec Ideal S1x128 .f32) (v28 : Vec Ideal S1x1 .f32) (p : Fin 5120) (q : Fin 128) :
    k0_pay1 (F := Ideal) v0 v2 v5 v7 v11 v12 v16 v22 v28 (ix2 p q)
      = EdgeGate.weighted (fun k j => v2 (ix2 k j)) (fun k j => v7 (ix2 k j)) (fun k j => v12 (ix2 k j))
          (fun j => v16 (ix2 (0 : Fin 1) j)) (fun k => v22 (ix2 (0 : Fin 1) k)) (v28 (ix2 (0 : Fin 1) (0 : Fin 1)))
          (fun k => v0 (ix2 p k)) (fun k => v5 (ix2 p k)) (fun k => v11 (ix2 p k)) q := by
  rw [pay_eq]
  unfold EdgeGate.weighted
  rw [mulf_apply, message_apply, Cert.Lib.Column.broadcastTo_a1_ab_apply]
  show _ * Ideal.logistic (gateLogit v0 v2 v5 v7 v11 v12 v16 v22 v28 (ix2 p (0 : Fin 1))) = _
  rw [gateLogit_apply]

end Cert.KernelIdeal.Block

end
-- ==== Proof.KernelValue.lean ====
/-
  From the blocks to the array: what the kernel's region leaves in its 640000 × 128 result.

  The grid has 125 points; point `t` reads rows 5120·t … 5120·t + 5119 of the gathered sender rows, of the gathered
  receiver rows and of the edge attributes, reads the weights whole (the three row bands of the first layer's matrix
  are cut from it before the region, the bias and the second layer's column are re-laid as 1 × 128 rows, the last bias as
  a 1 × 1 entry), and writes back rows 5120·t … 5120·t + 5119 of the result. Entry (p, q) of what it writes is the
  weighted message of the block's edge `p`, which is edge 5120·t + p of the arrays, at unit `q`; the 125 row blocks
  tile the result, so after the region the result is the array of weighted messages (`Cert.EdgeGate.weightedAll`).
-/
import proofs.«114606_j14886356648021_2_alg».proof.Proof.Gen.KernelIdeal.Frame
import proofs.«114606_j14886356648021_2_alg».proof.Proof.KernelPayload
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Whole

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The arrays the region finds -/

/-- Node indices as the gather takes them: a negative index counts from the end (40000 is added to it), and the
    vector of indices becomes a 640000 × 1 column. -/
def wrapped (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- The senders' rows, one per edge. -/
def senders (c : Dev nD) : S640000x128.Idx → EReal :=
  Host.gather gather_S40000x128_S640000x1_S640000x128_1_0_n_n_0_1_1128 (m ((c : Thread nD τ).loc main_arg0))
    (wrapped (m ((c : Thread nD τ).loc main_arg7)))

/-- The receivers' rows, one per edge. -/
def receivers (c : Dev nD) : S640000x128.Idx → EReal :=
  Host.gather gather_S40000x128_S640000x1_S640000x128_1_0_n_n_0_1_1128 (m ((c : Thread nD τ).loc main_arg1))
    (wrapped (m ((c : Thread nD τ).loc main_arg8)))

theorem V_v6 (c : Dev nD) : (V m c main_v6 : S640000x128.Idx → EReal) = senders m c := by
  show StableHlo.after hostOps0 (fun b => m (c, b)) (Proc.devRef .tc main_v6) = _
  after_results
  first | done | rfl
theorem V_v13 (c : Dev nD) : (V m c main_v13 : S640000x128.Idx → EReal) = receivers m c := by
  show StableHlo.after hostOps0 (fun b => m (c, b)) (Proc.devRef .tc main_v13) = _
  after_results
  first | done | rfl
theorem V_v14 (c : Dev nD) : (V m c main_v14 : S128x128.Idx → EReal)
    = extractStridedSlice S128x128 ![0, 0] (m ((c : Thread nD τ).loc main_arg3)) slices_S264x128_S128x128_0_0 := by
  show StableHlo.after hostOps0 (fun b => m (c, b)) (Proc.devRef .tc main_v14) = _
  after_results
  first | done | rfl
theorem V_v15 (c : Dev nD) : (V m c main_v15 : S128x128.Idx → EReal)
    = extractStridedSlice S128x128 ![128, 0] (m ((c : Thread nD τ).loc main_arg3)) slices_S264x128_S128x128_128_0 := by
  show StableHlo.after hostOps0 (fun b => m (c, b)) (Proc.devRef .tc main_v15) = _
  after_results
  first | done | rfl
theorem V_v16 (c : Dev nD) : (V m c main_v16 : S8x128.Idx → EReal)
    = extractStridedSlice S8x128 ![256, 0] (m ((c : Thread nD τ).loc main_arg3)) slices_S264x128_S8x128_256_0 := by
  show StableHlo.after hostOps0 (fun b => m (c, b)) (Proc.devRef .tc main_v16) = _
  after_results
  first | done | rfl
theorem V_v17 (c : Dev nD) : (V m c main_v17 : S1x128.Idx → EReal)
    = shapeCast S1x128 (m ((c : Thread nD τ).loc main_arg4)) shapeCasts_S128_S1x128 := by
  show StableHlo.after hostOps0 (fun b => m (c, b)) (Proc.devRef .tc main_v17) = _
  after_results
  first | done | rfl
theorem V_v18 (c : Dev nD) : (V m c main_v18 : S1x128.Idx → EReal)
    = shapeCast S1x128 (m ((c : Thread nD τ).loc main_arg5)) shapeCasts_S128x1_S1x128 := by
  show StableHlo.after hostOps0 (fun b => m (c, b)) (Proc.devRef .tc main_v18) = _
  after_results
  first | done | rfl
theorem V_v19 (c : Dev nD) : (V m c main_v19 : S1x1.Idx → EReal)
    = shapeCast S1x1 (m ((c : Thread nD τ).loc main_arg6)) shapeCasts_S1_S1x1 := by
  show StableHlo.after hostOps0 (fun b => m (c, b)) (Proc.devRef .tc main_v19) = _
  after_results
  first | done | rfl

/-! ## Where each window's block sits -/

/-- The printed index maps over the grid: the four row-blocked windows sit at row block `t`, the six weight windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 125 := Nat.lt_of_lt_of_eq t.isLt (N_0 : cfg0.N = 125)

/-- Row `p` of point `t`'s sender block is the senders' row 5120·t + p. -/
theorem blk_senders (c : Dev nD) (t : Fin cfg0.N) (p : Fin 5120) (k : Fin 128) :
    iblk m c 0 t (ix2 p k) = senders m c (ix2 (⟨t.val * 5120 + p.val, by have := t_lt t; omega⟩ : Fin 640000) k) := by
  obtain ⟨e0, e1, -⟩ := idx_facts t
  show V m c main_v6 (((cfg0.win 0).blk t).view.emb (ix2 p k)) = _
  rw [V_v6]
  refine congrArg (senders m c) ?_
  funext a; apply Fin.ext
  match a with
  | ⟨0, _⟩ => show win0_0.index t (0 : Fin 2) * 5120 + 1 * p.val = t.val * 5120 + p.val; omega
  | ⟨1, _⟩ => show win0_0.index t (1 : Fin 2) * 128 + 1 * k.val = k.val; omega

/-- Row `p` of point `t`'s receiver block is the receivers' row 5120·t + p. -/
theorem blk_receivers (c : Dev nD) (t : Fin cfg0.N) (p : Fin 5120) (k : Fin 128) :
    iblk m c 1 t (ix2 p k) = receivers m c (ix2 (⟨t.val * 5120 + p.val, by have := t_lt t; omega⟩ : Fin 640000) k) := by
  obtain ⟨-, -, e0, e1, -⟩ := idx_facts t
  show V m c main_v13 (((cfg0.win 1).blk t).view.emb (ix2 p k)) = _
  rw [V_v13]
  refine congrArg (receivers m c) ?_
  funext a; apply Fin.ext
  match a with
  | ⟨0, _⟩ => show win0_1.index t (0 : Fin 2) * 5120 + 1 * p.val = t.val * 5120 + p.val; omega
  | ⟨1, _⟩ => show win0_1.index t (1 : Fin 2) * 128 + 1 * k.val = k.val; omega

/-- Row `p` of point `t`'s attribute block is the attributes' row 5120·t + p. -/
theorem blk_attrs (c : Dev nD) (t : Fin cfg0.N) (p : Fin 5120) (k : Fin 8) :
    iblk m c 2 t (ix2 p k)
      = (m ((c : Thread nD τ).loc main_arg2) : S640000x8.Idx → EReal) (ix2 (⟨t.val * 5120 + p.val, by have := t_lt t; omega⟩ : Fin 640000) k) := by
  obtain ⟨-, -, -, -, e0, e1, -⟩ := idx_facts t
  show V m c main_arg2 (((cfg0.win 2).blk t).view.emb (ix2 p k)) = _
  rw [V_main_arg2]
  refine congrArg (m ((c : Thread nD τ).loc main_arg2) : S640000x8.Idx → EReal) ?_
  funext a; apply Fin.ext
  match a with
  | ⟨0, _⟩ => show win0_2.index t (0 : Fin 2) * 5120 + 1 * p.val = t.val * 5120 + p.val; omega
  | ⟨1, _⟩ => show win0_2.index t (1 : Fin 2) * 8 + 1 * k.val = k.val; omega

/-- The sender band the body reads is rows 0–127 of the first layer's matrix. -/
theorem blk_band_s (c : Dev nD) (t : Fin cfg0.N) (k j : Fin 128) :
    iblk m c 3 t (ix2 k j)
      = (m ((c : Thread nD τ).loc main_arg3) : S264x128.Idx → EReal) (ix2 (⟨k.val, by omega⟩ : Fin 264) j) := by
  obtain ⟨-, -, -, -, -, -, e0, e1, -⟩ := idx_facts t
  show V m c main_v14 (((cfg0.win 3).blk t).view.emb (ix2 k j)) = _
  rw [V_v14]
  refine extractStridedSlice_apply _ _ _ _ _ fun a => ?_
  match a with
  | ⟨0, _⟩ => show k.val = 0 + (win0_3.index t (0 : Fin 2) * 128 + 1 * k.val); omega
  | ⟨1, _⟩ => show j.val = 0 + (win0_3.index t (1 : Fin 2) * 128 + 1 * j.val); omega

/-- The receiver band is rows 128–255. -/
theorem blk_band_r (c : Dev nD) (t : Fin cfg0.N) (k j : Fin 128) :
    iblk m c 4 t (ix2 k j)
      = (m ((c : Thread nD τ).loc main_arg3) : S264x128.Idx → EReal) (ix2 (⟨128 + k.val, by omega⟩ : Fin 264) j) := by
  obtain ⟨-, -, -, -, -, -, -, -, e0, e1, -⟩ := idx_facts t
  show V m c main_v15 (((cfg0.win 4).blk t).view.emb (ix2 k j)) = _
  rw [V_v15]
  refine extractStridedSlice_apply _ _ _ _ _ fun a => ?_
  match a with
  | ⟨0, _⟩ => show 128 + k.val = 128 + (win0_4.index t (0 : Fin 2) * 128 + 1 * k.val); omega
  | ⟨1, _⟩ => show j.val = 0 + (win0_4.index t (1 : Fin 2) * 128 + 1 * j.val); omega

/-- The attribute band is rows 256–263. -/
theorem blk_band_a (c : Dev nD) (t : Fin cfg0.N) (k : Fin 8) (j : Fin 128) :
    iblk m c 5 t (ix2 k j)
      = (m ((c : Thread nD τ).loc main_arg3) : S264x128.Idx → EReal) (ix2 (⟨256 + k.val, by omega⟩ : Fin 264) j) := by
  obtain ⟨-, -, -, -, -, -, -, -, -, -, e0, e1, -⟩ := idx_facts t
  show V m c main_v16 (((cfg0.win 5).blk t).view.emb (ix2 k j)) = _
  rw [V_v16]
  refine extractStridedSlice_apply _ _ _ _ _ fun a => ?_
  match a with
  | ⟨0, _⟩ => show 256 + k.val = 256 + (win0_5.index t (0 : Fin 2) * 8 + 1 * k.val); omega
  | ⟨1, _⟩ => show j.val = 0 + (win0_5.index t (1 : Fin 2) * 128 + 1 * j.val); omega

/-- The bias row the body reads is the first layer's bias. -/
theorem blk_bias (c : Dev nD) (t : Fin cfg0.N) (j : Fin 128) :
    iblk m c 6 t (ix2 (0 : Fin 1) j) = (m ((c : Thread nD τ).loc main_arg4) : S128.Idx → EReal) (ix1 j) := by
  obtain ⟨-, -, -, -, -, -, -, -, -, -, -, -, e0, e1, -⟩ := idx_facts t
  show V m c main_v17 (((cfg0.win 6).blk t).view.emb (ix2 (0 : Fin 1) j)) = _
  rw [V_v17]
  refine shapeCast_apply _ _ _ _ ?_
  show (S128.rowMajor (ix1 j)).val = (S1x128.rowMajor (((cfg0.win 6).blk t).view.emb (ix2 (0 : Fin 1) j))).val
  rw [Shape.rowMajor_val_two, Shape.rowMajor_val_one]
  show j.val = (win0_6.index t (0 : Fin 2) * 1 + 1 * 0) * 128 + (win0_6.index t (1 : Fin 2) * 128 + 1 * j.val)
  omega

/-- The row of the second layer's weights the body reads is that layer's column, entry by entry. -/
theorem blk_gate_w (c : Dev nD) (t : Fin cfg0.N) (k : Fin 128) :
    iblk m c 7 t (ix2 (0 : Fin 1) k) = (m ((c : Thread nD τ).loc main_arg5) : S128x1.Idx → EReal) (ix2 k (0 : Fin 1)) := by
  obtain ⟨-, -, -, -, -, -, -, -, -, -, -, -, -, -, e0, e1, -⟩ := idx_facts t
  show V m c main_v18 (((cfg0.win 7).blk t).view.emb (ix2 (0 : Fin 1) k)) = _
  rw [V_v18]
  refine shapeCast_apply _ _ _ _ ?_
  show (S128x1.rowMajor (ix2 k (0 : Fin 1))).val = (S1x128.rowMajor (((cfg0.win 7).blk t).view.emb (ix2 (0 : Fin 1) k))).val
  rw [Shape.rowMajor_val_two, Shape.rowMajor_val_two]
  show k.val * 1 + 0 = (win0_7.index t (0 : Fin 2) * 1 + 1 * 0) * 128 + (win0_7.index t (1 : Fin 2) * 128 + 1 * k.val)
  omega

/-- The 1 × 1 entry the body reads is the second layer's bias. -/
theorem blk_gate_b (c : Dev nD) (t : Fin cfg0.N) :
    iblk m c 8 t (ix2 (0 : Fin 1) (0 : Fin 1)) = (m ((c : Thread nD τ).loc main_arg6) : S1.Idx → EReal) (ix1 (0 : Fin 1)) := by
  obtain ⟨-, -, -, -, -, -, -, -, -, -, -, -, -, -, -, -, e0, e1, -⟩ := idx_facts t
  show V m c main_v19 (((cfg0.win 8).blk t).view.emb (ix2 (0 : Fin 1) (0 : Fin 1))) = _
  rw [V_v19]
  refine shapeCast_apply _ _ _ _ ?_
  show (S1.rowMajor (ix1 (0 : Fin 1))).val = (S1x1.rowMajor (((cfg0.win 8).blk t).view.emb (ix2 (0 : Fin 1) (0 : Fin 1)))).val
  rw [Shape.rowMajor_val_two, Shape.rowMajor_val_one]
  show 0 = (win0_8.index t (0 : Fin 2) * 1 + 1 * 0) * 1 + (win0_8.index t (1 : Fin 2) * 1 + 1 * 0)
  omega

/-! ## What a point writes back, the cover, and the array after the region -/

theorem hz : (![0, 0] : Fin 2 → Nat) = fun _ => 0 := funext fun a => by fin_cases a <;> rfl

/-- The array of weighted messages of the arrays the region finds. -/
def result (c : Dev nD) : S640000x128.Idx → EReal :=
  EdgeGate.weightedAll (senders m c) (receivers m c) (m ((c : Thread nD τ).loc main_arg2)) (m ((c : Thread nD τ).loc main_arg3))
    (m ((c : Thread nD τ).loc main_arg4)) (m ((c : Thread nD τ).loc main_arg5)) (m ((c : Thread nD τ).loc main_arg6))

/-- WHAT POINT `t` WRITES BACK is rows 5120·t … 5120·t + 5119 of the array of weighted messages. -/
theorem flushed_eq (c : Dev nD) (t : Fin cfg0.N) :
    (dats m 0 c).flushed 9 t = ((cfg0.win 9).blk t).view.read (Elt Ideal) (result m c) := by
  obtain ⟨-, -, -, -, -, -, -, -, -, -, -, -, -, -, -, -, -, -, e0, e1⟩ := idx_facts t
  show (cfg0.win 9).cut (grid0.coords t) ((dats m 0 c).after 9 t) = _
  rw [after0_9]
  unfold out0_9
  rw [View.canon_unit_zero hz]
  simp only [View.ld_unit_zero (S := S5120x128) hz, View.ld_unit_zero (S := S128x128) hz, View.ld_unit_zero (S := S5120x8) hz,
    View.ld_unit_zero (S := S8x128) hz, View.ld_unit_zero (S := S1x128) hz, View.ld_unit_zero (S := S1x1) hz]
  funext j
  obtain ⟨p, q, rfl⟩ : ∃ (p : Fin 5120) (q : Fin 128), j = ix2 p q := ⟨j 0, j 1, eq_ix2 j⟩
  show k0_pay1 (F := Ideal) (iblk m c 0 t) (iblk m c 3 t) (iblk m c 1 t) (iblk m c 4 t) (iblk m c 2 t) (iblk m c 5 t)
      (iblk m c 6 t) (iblk m c 7 t) (iblk m c 8 t) (ix2 p q)
    = result m c (((cfg0.win 9).blk t).view.emb (ix2 p q))
  refine (Block.pay_apply (iblk m c 0 t) (iblk m c 3 t) (iblk m c 1 t) (iblk m c 4 t) (iblk m c 2 t) (iblk m c 5 t)
      (iblk m c 6 t) (iblk m c 7 t) (iblk m c 8 t) p q).trans (Eq.symm ?_)
  unfold result
  refine (EdgeGate.weightedAll_apply _ _ _ _ _ _ _ (((cfg0.win 9).blk t).view.emb (ix2 p q))
      (⟨t.val * 5120 + p.val, by have := t_lt t; omega⟩ : Fin 640000) q ?_ ?_).trans ?_
  · show win0_9.index t (0 : Fin 2) * 5120 + 1 * p.val = t.val * 5120 + p.val; omega
  · show win0_9.index t (1 : Fin 2) * 128 + 1 * q.val = q.val; omega
  · exact EdgeGate.weighted_congr q
      (funext fun k => funext fun j => (blk_band_s m c t k j).symm)
      (funext fun k => funext fun j => (blk_band_r m c t k j).symm)
      (funext fun k => funext fun j => (blk_band_a m c t k j).symm)
      (funext fun j => (blk_bias m c t j).symm)
      (funext fun k => (blk_gate_w m c t k).symm)
      (blk_gate_b m c t).symm
      (funext fun k => (blk_senders m c t p k).symm)
      (funext fun k => (blk_receivers m c t p k).symm)
      (funext fun k => (blk_attrs m c t p k).symm)

end Cert.KernelIdeal.Whole

end
-- ==== Proof.KernelRun.lean ====
/-
  The kernel's whole program, read: after the region the result array is the array of weighted messages (the 125
  row blocks tile it), and the host operations that follow add each edge's row into the row of its receiver, from
  a zero array — a scatter-add of that array by the receivers' indices.
-/
import proofs.«114606_j14886356648021_2_alg».proof.Proof.KernelValue

noncomputable section

namespace Cert.KernelIdeal.Whole

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The row blocks tile the result -/

/-- An index of the result is in point `t`'s block iff each coordinate is in the block's range on its axis. -/
theorem mem_blk (t : Fin cfg0.N) (i : S640000x128.Idx) :
    i ∈ ((cfg0.win 9).blk t).view.set
      ↔ ∀ a : Fin 2, win0_9.index t a * S5120x128.size a ≤ (i a).val
          ∧ (i a).val < win0_9.index t a * S5120x128.size a + S5120x128.size a := by
  show i ∈ ((View.whole main_v20).slice (win0_9.rect t)).set ↔ _
  rw [View.set_slice_whole, Rect.mem_set_unit]
  exact Iff.rfl

/-- Row `r` of the result is written back by point `r / 5120`. -/
theorem cover (i : S640000x128.Idx) :
    ∃ t : Fin cfg0.N, (cfg0.win 9).flush t = true ∧ i ∈ ((cfg0.win 9).blk t).view.set := by
  have hi0 : (i 0).val < 640000 := idx2_lt0 i
  have hi1 : (i 1).val < 128 := idx2_lt1 i
  obtain ⟨t, ht⟩ : ∃ t : Fin cfg0.N, t.val = (i 0).val / 5120 :=
    ⟨⟨(i 0).val / 5120, by rw [show cfg0.N = 125 from N_0]; omega⟩, rfl⟩
  obtain ⟨-, -, -, -, -, -, -, -, -, -, -, -, -, -, -, -, -, -, e0, e1⟩ := idx_facts t
  refine ⟨t, flush0_9 t, ?_⟩
  rw [mem_blk]
  intro a
  match a with
  | ⟨0, _⟩ =>
    show win0_9.index t (0 : Fin 2) * 5120 ≤ (i 0).val ∧ (i 0).val < win0_9.index t (0 : Fin 2) * 5120 + 5120
    omega
  | ⟨1, _⟩ =>
    show win0_9.index t (1 : Fin 2) * 128 ≤ (i 1).val ∧ (i 1).val < win0_9.index t (1 : Fin 2) * 128 + 128
    omega

/-- THE RESULT ARRAY AFTER THE REGION is the array of weighted messages. -/
theorem final (c : Dev nD) : (dats m 0 c).arrAt 9 cfg0.N = result m c :=
  (dats m 0 c).arrAt_eq_of_cover 9 (result m c) (fun t _ => flushed_eq m c t) cover

/-! ## The host operations after the region -/

/-- Each edge's row added into the row of its receiver, from zeros. -/
def aggregate (U : S640000x128.Idx → EReal) (idx : IVec S640000 32) : S40000x128.Idx → EReal :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 idx) U

/-- What the program returns: the weighted messages summed per receiver. -/
theorem tail_eq (c : Dev nD) :
    Pipeline.afterTail₀ cfgs (dats m) 0 (V0 m) [hostOps1] c main_v23
      = aggregate (result m c) (m ((c : Thread nD τ).loc main_arg8)) := by
  unfold Pipeline.afterTail₀
  show StableHlo.after hostOps1 _ (Proc.devRef .tc main_v23) = _
  after_results
  have e20 : Pipeline.withArrays (cfgs 0).spec c (V0 m c) (fun w => (dats m 0 c).arrAt w (cfgs 0).N) (Proc.devRef .tc main_v20)
      = result m c :=
    (Pipeline.withArrays_arr spec0 launch0.win.arr_inj c (V0 m c) _ 9).trans (final m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans
      (V_main_arg8 m c)
  rw [e20, e8]
  rfl

/-! ## The run -/

/-- Every weakly fair execution of the kernel's program terminates with its result at the weighted messages summed per
    receiver and its arguments unchanged. -/
theorem run : θ_run defs (onTc (τ := τ) (main (F := Ideal))) ⟨m, fun _ => 0, ρ⟩ fun r => ∀ c : Dev nD,
      r.2.mem ((c.tc : Thread nD τ).loc main_v23) = aggregate (result m c) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Whole

end
-- ==== Proof.RefValue.lean ====
/-
  The reference's array of weighted messages, index by index.

  The reference joins each edge's sender row, receiver row and attributes into one row of 264 entries and multiplies
  by the first layer's whole 264 × 128 matrix; the contraction over 264 indices is the sum of its three stretches
  (`Cert.EdgeGate.sum_three_bands`), and along each stretch the joined row reads the piece it was joined from. It
  writes the SiLU and the sigmoid out as `x · (1 / (1 + e^(−x)))` and `1 / (1 + e^(−y))`, which on the extended reals is
  what the logistic function is. So the 640000 × 128 array it scatters is the array of weighted messages
  (`Cert.EdgeGate.weightedAll`) of the gathered rows and the other arguments.
-/
import proofs.«114606_j14886356648021_2_alg».proof.Proof.Gen.ReferenceIdeal.Read
import proofs.«114606_j14886356648021_2_alg».proof.Proof.GateSpec
import Idealize.ShloMosaic.Lib.Pipeline.Value
import Idealize.ShloMosaic.Lib.ValueIdx
import Idealize.ShloMosaic.PureOps.Ideal.Laws
import Idealize.ShloMosaic.PureOps.IdealRules

noncomputable section

namespace Cert.ReferenceIdeal.RefValue

open Idealize.ShloMosaic Idealize.ShloMosaic.ValueIdx
open Cert.ReferenceIdeal Cert.ReferenceIdeal.Gen Cert.ReferenceIdeal.Read

/-! ## The logistic function written out -/

/-- The word of the literal 1.0 denotes 1. -/
theorem one_word : Ideal.ofBits .f32 0x3F800000#32 = 1 := IdealRules.sign_bit.ideal_onePat .f32

/-- `1 / (1 + e^(−y))` in the host's operations is the logistic function, at every extended real. -/
theorem sigmoid_host (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  show Ideal.div (Ideal.ofBits .f32 0x3F800000#32) (Ideal.ofBits .f32 0x3F800000#32 + Ideal.exp (-y)) = Ideal.div 1 (1 + Ideal.exp (-y))
  rw [one_word]

/-! ## The joined row reads its three pieces -/

section
variable (x0 x1 : (⟨S40000x128, .f32⟩ : BufTy).Contents (Elt Ideal)) (x2 : (⟨S640000x8, .f32⟩ : BufTy).Contents (Elt Ideal))
  (x3 : (⟨S264x128, .f32⟩ : BufTy).Contents (Elt Ideal)) (x4 : (⟨S128, .f32⟩ : BufTy).Contents (Elt Ideal))
  (x5 : (⟨S128x1, .f32⟩ : BufTy).Contents (Elt Ideal)) (x6 : (⟨S1, .f32⟩ : BufTy).Contents (Elt Ideal))
  (x7 x8 : (⟨S640000, .i32⟩ : BufTy).Contents (Elt Ideal))

/-- Entries 0–127 of edge `e`'s joined row are its sender row. -/
theorem joined_s (e : Fin 640000) (k : Fin 128) :
    val_main_v14 (F := Ideal) x0 x1 x2 x7 x8 (ix2 e (⟨k.val, by omega⟩ : Fin 264))
      = val_main_v6 (F := Ideal) x0 x7 (ix2 e k) := by
  unfold val_main_v14
  refine concatenate_apply_piece (t := S640000x264) (1 : Fin 2) [⟨S640000x128, val_main_v6 (F := Ideal) x0 x7⟩, ⟨S640000x128, val_main_v13 (F := Ideal) x1 x8⟩, ⟨S640000x8, x2⟩]
    concatenates_S640000x128_S640000x128_S640000x8_S640000x264_d1 _ 0 (by show (0 : ℕ) < 3; omega) S640000x128 _ rfl rfl 0 rfl (ix2 e k) (fun b hb => ?_) ?_
  · match b with
    | ⟨0, _⟩ => rfl
    | ⟨1, _⟩ => exact absurd rfl hb
  · show 0 + k.val = k.val; omega

/-- Entries 128–255 are its receiver row. -/
theorem joined_r (e : Fin 640000) (k : Fin 128) :
    val_main_v14 (F := Ideal) x0 x1 x2 x7 x8 (ix2 e (⟨128 + k.val, by omega⟩ : Fin 264))
      = val_main_v13 (F := Ideal) x1 x8 (ix2 e k) := by
  unfold val_main_v14
  refine concatenate_apply_piece (t := S640000x264) (1 : Fin 2) [⟨S640000x128, val_main_v6 (F := Ideal) x0 x7⟩, ⟨S640000x128, val_main_v13 (F := Ideal) x1 x8⟩, ⟨S640000x8, x2⟩]
    concatenates_S640000x128_S640000x128_S640000x8_S640000x264_d1 _ 1 (by show (1 : ℕ) < 3; omega) S640000x128 _ rfl rfl 128 rfl (ix2 e k) (fun b hb => ?_) ?_
  · match b with
    | ⟨0, _⟩ => rfl
    | ⟨1, _⟩ => exact absurd rfl hb
  · rfl

/-- Entries 256–263 are its attributes. -/
theorem joined_a (e : Fin 640000) (k : Fin 8) :
    val_main_v14 (F := Ideal) x0 x1 x2 x7 x8 (ix2 e (⟨256 + k.val, by omega⟩ : Fin 264)) = x2 (ix2 e k) := by
  unfold val_main_v14
  refine concatenate_apply_piece (t := S640000x264) (1 : Fin 2) [⟨S640000x128, val_main_v6 (F := Ideal) x0 x7⟩, ⟨S640000x128, val_main_v13 (F := Ideal) x1 x8⟩, ⟨S640000x8, x2⟩]
    concatenates_S640000x128_S640000x128_S640000x8_S640000x264_d1 _ 2 (by show (2 : ℕ) < 3; omega) S640000x8 _ rfl rfl 256 rfl (ix2 e k) (fun b hb => ?_) ?_
  · match b with
    | ⟨0, _⟩ => rfl
    | ⟨1, _⟩ => exact absurd rfl hb
  · rfl

/-! ## The stages at an index -/

theorem lidx15 (e : Fin 640000) (q : Fin 128) (k : Fin 264) : lidx_main_v15 (ix2 e q) k = ix2 e k :=
  funext fun a => Fin.ext (by match a with | ⟨0, _⟩ => rfl | ⟨1, _⟩ => rfl)
theorem ridx15 (e : Fin 640000) (q : Fin 128) (k : Fin 264) : ridx_main_v15 (ix2 e q) k = ix2 k q :=
  funext fun a => Fin.ext (by match a with | ⟨0, _⟩ => rfl | ⟨1, _⟩ => rfl)
theorem lidx20 (e : Fin 640000) (u : Fin 1) (k : Fin 128) : lidx_main_v20 (ix2 e u) k = ix2 e k :=
  funext fun a => Fin.ext (by match a with | ⟨0, _⟩ => rfl | ⟨1, _⟩ => rfl)
theorem ridx20 (e : Fin 640000) (u : Fin 1) (k : Fin 128) : ridx_main_v20 (ix2 e u) k = ix2 k u :=
  funext fun a => Fin.ext (by match a with | ⟨0, _⟩ => rfl | ⟨1, _⟩ => rfl)

theorem idx_bias (e : Fin 640000) (q : Fin 128) : idx_main_v16 (idx_main_v17 (ix2 e q)) = ix1 q :=
  funext fun a => Fin.ext (by match a with | ⟨0, _⟩ => rfl)

/-- The pre-activation of edge `e` at unit `q`. -/
theorem pre_apply (e : Fin 640000) (q : Fin 128) :
    val_main_v18 (F := Ideal) x0 x1 x2 x3 x4 x7 x8 (ix2 e q)
      = EdgeGate.pre (fun k j => x3 (ix2 (⟨k.val, by omega⟩ : Fin 264) j)) (fun k j => x3 (ix2 (⟨128 + k.val, by omega⟩ : Fin 264) j))
          (fun k j => x3 (ix2 (⟨256 + k.val, by omega⟩ : Fin 264) j)) (fun j => x4 (ix1 j))
          (fun k => val_main_v6 (F := Ideal) x0 x7 (ix2 e k)) (fun k => val_main_v13 (F := Ideal) x1 x8 (ix2 e k))
          (fun k => x2 (ix2 e k)) q := by
  rw [val_main_v18_apply, val_main_v15_apply, val_main_v17_apply, val_main_v16_apply, EdgeGate.sum_three_bands]
  unfold EdgeGate.pre
  simp only [lidx15, ridx15, joined_s, joined_r, joined_a, idx_bias]
  rfl

/-- The message of edge `e` at unit `q`: the reference's `x · (1 / (1 + e^(−x)))` is `x · σ x`. -/
theorem msg_apply (e : Fin 640000) (q : Fin 128) :
    val_main_v19 (F := Ideal) x0 x1 x2 x3 x4 x7 x8 (ix2 e q)
      = EdgeGate.msg (fun k j => x3 (ix2 (⟨k.val, by omega⟩ : Fin 264) j)) (fun k j => x3 (ix2 (⟨128 + k.val, by omega⟩ : Fin 264) j))
          (fun k j => x3 (ix2 (⟨256 + k.val, by omega⟩ : Fin 264) j)) (fun j => x4 (ix1 j))
          (fun k => val_main_v6 (F := Ideal) x0 x7 (ix2 e k)) (fun k => val_main_v13 (F := Ideal) x1 x8 (ix2 e k))
          (fun k => x2 (ix2 e k)) q := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, sigmoid_host, pre_apply]
  rfl

theorem idx_gate_bias (e : Fin 640000) (u : Fin 1) : idx_main_v21 (idx_main_v22 (ix2 e u)) = ix1 (0 : Fin 1) :=
  funext fun a => Fin.ext (by match a with | ⟨0, _⟩ => rfl)

/-- The gate's logit of edge `e`. -/
theorem logit_apply (e : Fin 640000) :
    val_main_v23 (F := Ideal) x0 x1 x2 x3 x4 x5 x6 x7 x8 (ix2 e (0 : Fin 1))
      = EdgeGate.logit (fun k j => x3 (ix2 (⟨k.val, by omega⟩ : Fin 264) j)) (fun k j => x3 (ix2 (⟨128 + k.val, by omega⟩ : Fin 264) j))
          (fun k j => x3 (ix2 (⟨256 + k.val, by omega⟩ : Fin 264) j)) (fun j => x4 (ix1 j)) (fun k => x5 (ix2 k (0 : Fin 1)))
          (x6 (ix1 (0 : Fin 1)))
          (fun k => val_main_v6 (F := Ideal) x0 x7 (ix2 e k)) (fun k => val_main_v13 (F := Ideal) x1 x8 (ix2 e k))
          (fun k => x2 (ix2 e k)) := by
  rw [val_main_v23_apply, val_main_v20_apply, val_main_v22_apply, val_main_v21_apply]
  unfold EdgeGate.logit
  simp only [lidx20, ridx20, msg_apply, idx_gate_bias]
  rfl

theorem idx_spread (e : Fin 640000) (q : Fin 128) : idx_main_v30 (ix2 e q) = ix2 e (0 : Fin 1) :=
  funext fun a => Fin.ext (by match a with | ⟨0, _⟩ => rfl | ⟨1, _⟩ => rfl)

/-- THE REFERENCE'S ARRAY: what it scatters is the array of weighted messages of the gathered rows. -/
theorem weighted_eq :
    val_main_v31 (F := Ideal) x0 x1 x2 x3 x4 x5 x6 x7 x8
      = EdgeGate.weightedAll (val_main_v6 (F := Ideal) x0 x7) (val_main_v13 (F := Ideal) x1 x8) x2 x3 x4 x5 x6 := by
  funext i
  obtain ⟨e, q, rfl⟩ : ∃ (e : Fin 640000) (q : Fin 128), i = ix2 e q := ⟨i 0, i 1, eq_ix2 i⟩
  refine Eq.trans ?_ (EdgeGate.weightedAll_apply _ _ _ _ _ _ _ (ix2 e q) e q rfl rfl).symm
  rw [val_main_v31_apply, val_main_v30_apply, val_main_v29_apply, val_main_v28_apply, val_main_cst_3_apply,
    val_main_v27_apply, val_main_v26_apply, val_main_cst_apply, val_main_v25_apply, val_main_v24_apply, sigmoid_host,
    idx_spread, logit_apply, msg_apply]
  rfl

end

end Cert.ReferenceIdeal.RefValue

end
-- ==== Proof.lean ====
/-
  Gated edge messages aggregated per receiver: the kernel's program against the reference, over the extended reals.

  Both programs gather, for each of 640000 edges, its sender's and its receiver's row of node features, compute the
  edge's weighted message — the SiLU of one linear layer applied to (sender row, receiver row, edge attributes), times
  the sigmoid of a second linear layer applied to that message — and add the edge's weighted message into the row of
  its receiver.

  The two differ in arrangement only. The kernel's program cuts the first layer's 264 × 128 matrix into its three row
  bands and adds three products where the reference multiplies the joined 264-entry row once; a sum over 264 indices
  is the sum of its three stretches. It takes the second layer's product as a sum along the lanes of a row times the
  layer's column laid out as a row, which is the same sum. It applies the logistic function where the reference writes
  `1 / (1 + e^(−x))`, which on the extended reals is that function's definition. And it computes the 640000 rows in
  125 blocks of 5120, which tile the array. None of these steps needs an input to be finite, so the precondition is
  not used in the value claim. The gather before and the scatter-add after are the same operations in both programs
  and are carried along unopened.

  `frame_Kernel` and `frame_KernelIdeal` are the generated frame runs; `frame_ReferenceIdeal` is the reference's
  generated run with its result dropped; the ideal pass rewrote nothing, so `preserves_Kernel_KernelIdeal` is `True`.
-/
import proofs.«114606_j14886356648021_2_alg».proof.Defs
import proofs.«114606_j14886356648021_2_alg».proof.Proof.Gen.Kernel
import proofs.«114606_j14886356648021_2_alg».proof.Proof.Gen.Kernel.Skeleton
import proofs.«114606_j14886356648021_2_alg».proof.Proof.Gen.Kernel.Launch
import proofs.«114606_j14886356648021_2_alg».proof.Proof.Gen.Kernel.Points
import proofs.«114606_j14886356648021_2_alg».proof.Proof.Gen.Kernel.Frame
import proofs.«114606_j14886356648021_2_alg».proof.Proof.Gen.KernelIdeal
import proofs.«114606_j14886356648021_2_alg».proof.Proof.Gen.KernelIdeal.Skeleton
import proofs.«114606_j14886356648021_2_alg».proof.Proof.Gen.KernelIdeal.Launch
import proofs.«114606_j14886356648021_2_alg».proof.Proof.Gen.KernelIdeal.Points
import proofs.«114606_j14886356648021_2_alg».proof.Proof.Gen.KernelIdeal.Frame
import proofs.«114606_j14886356648021_2_alg».proof.Proof.Gen.ReferenceIdeal
import proofs.«114606_j14886356648021_2_alg».proof.Proof.Gen.Pre_finite_inputs
import proofs.«114606_j14886356648021_2_alg».proof.Proof.Gen.ReferenceIdeal.Run
import proofs.«114606_j14886356648021_2_alg».proof.Proof.Gen.ReferenceIdeal.Read
import proofs.«114606_j14886356648021_2_alg».proof.Proof.KernelRun
import proofs.«114606_j14886356648021_2_alg».proof.Proof.RefValue
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the weighted messages summed per receiver: the
    kernel's result array after its region is the array of weighted messages (`Whole.final`), the reference's scattered
    array is the same array (`RefValue.weighted_eq`), and the gathers before and the scatter-add after are one term. -/
theorem algebraic : Cert.algebraic_KernelIdeal_ReferenceIdeal := by
  intro m ρ m' ρ' _ hagree
  refine ⟨fun c => Cert.KernelIdeal.Whole.aggregate (Cert.KernelIdeal.Whole.result m c)
      (m ((c.tc : Thread Cert.KernelIdeal.nD Cert.KernelIdeal.τ).loc Cert.KernelIdeal.main_arg8)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v34_eq, a0, a1, a2, a3, a4, a5, a6, a7, a8]
  unfold Cert.ReferenceIdeal.Read.val_main_v34
  rw [Cert.ReferenceIdeal.RefValue.weighted_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
